-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x1x4096 : Shape := ⟨3, ![16, 1, 4096]⟩
abbrev S1x1024x3 : Shape := ⟨3, ![1, 1024, 3]⟩
abbrev S1x4096x3 : Shape := ⟨3, ![1, 4096, 3]⟩
abbrev S1x1x1024 : Shape := ⟨3, ![1, 1, 1024]⟩
abbrev S1x1x4096 : Shape := ⟨3, ![1, 1, 4096]⟩
abbrev S1024x3 : Shape := ⟨2, ![1024, 3]⟩
abbrev S1024 : Shape := ⟨1, ![1024]⟩
abbrev S1024x1 : Shape := ⟨2, ![1024, 1]⟩
abbrev S1x4096 : Shape := ⟨2, ![1, 4096]⟩
abbrev S1x1024 : Shape := ⟨2, ![1, 1024]⟩
abbrev S3x1024 : Shape := ⟨2, ![3, 1024]⟩
abbrev S1024x1024 : Shape := ⟨2, ![1024, 1024]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x1x4096, .f32⟩
  | .hbm, ⟨3, _⟩ => ⟨S16x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg6 : BitVec 32 := Scf.iv c0_i32_4 c1_i32 k0_t1
  let c1024_i32 : BitVec 32 := 1024#32
  let v14 : BitVec 32 := Scalar.muli arg6 c1024_i32
  v14
def k0_off1 (k0_t1 : Fin k0_t1_loop.trips) : Fin 3 → Nat :=
  let c0_9 : Index := 0#32
  let c0_i32_4 : BitVec 32 := 0#32
  let c1_i32 : BitVec 32 := 1#32
  let arg6 : BitVec 32 := Scf.iv c0_i32_4 c1_i32 k0_t1
  let c1024_i32 : BitVec 32 := 1024#32
  let v14 : BitVec 32 := Scalar.muli arg6 c1024_i32
  let v15 : BitVec 32 := v14
  let v16 : Index := Scalar.indexCast v15
  let c0_10 : Index := 0#32
  ![0, v16.toNat, 0]
def k0_off2 (k0_t1 : Fin k0_t1_loop.trips) : Fin 3 → Nat :=
  let c0_16 : Index := 0#32
  let c0_17 : Index := 0#32
  let c0_i32_4 : BitVec 32 := 0#32
  let c1_i32 : BitVec 32 := 1#32
  let arg6 : BitVec 32 := Scf.iv c0_i32_4 c1_i32 k0_t1
  let c1024_i32 : BitVec 32 := 1024#32
  let v14 : BitVec 32 := Scalar.muli arg6 c1024_i32
  let v15 : BitVec 32 := v14
  let v37 : Index := Scalar.indexCast v15
  ![0, 0, v37.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  reducesTo_S16x1x4096_S_d0_1_2 : S16x1x4096.ReducesTo [0, 1, 2] S_
  h_S_ : 0 < S_.numel
  dot_S1024x3_S3x1024_S1024x1024_1_0_0_1_n_n_wf : DotDims.WF S1024x3 S3x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x3.size a ≤ S1x4096x3.size a
  k0_off2_inb : ∀ k0_t1 : Fin k0_t1_loop.trips, ∀ a, (k0_off2 k0_t1) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S_, .f32⟩
  | .hbm, ⟨26, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.LoopState.lean ====
/-
  The in-body loop over the four chunks of the second operand, read as a value.

  One trip `k` takes rows `1024·k … 1024·k + 1023` of the resident `[1, 4096, 3]` block (its chunk), folds that
  chunk's row minima into the carried `[1, 1024]` row vector, and stores into lanes `1024·k … 1024·k + 1023` of the
  `[1, 1, 4096]` column buffer the minimum of what those lanes held and the chunk's column minima. Distinct trips touch
  distinct lane ranges, so what trip `k` finds in its lanes is what the buffer held when the loop was entered: the stores
  made before trip `n` are exactly the chunk stores `k < n`, each a function of the entry contents alone, and the carried
  vector before trip `n` is the `n`-fold iterate of the row step.
-/
import proofs.«134157_j3212635537690_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Chamfer

open Cert.KernelIdeal Cert.KernelIdeal.Gen

variable {F : FTy → Type} [FloatOps F]

/-- The loop makes four trips. -/
theorem trips_eq : k0_t1_loop.trips = 4 := by decide

section Loop

variable (c : Dev nD) (i : grid0.Coords)
  (a2 : Memref sig .tc .vmem S1x1024x3 .f32) (h2 : a2.IsWhole) (a3 : Memref sig .tc .vmem S1x4096x3 .f32) (h3 : a3.IsWhole)
  (a4 : Memref sig .tc .vmem S1x1x1024 .f32) (h4 : a4.IsWhole) (a5 : Memref sig .tc .vmem S1x1x4096 .f32) (h5 : a5.IsWhole)
  (v0 : Vec F S1x1024x3 .f32) (X : BufTy.Contents (Elt F) a3.view.ty) (G : BufTy.Contents (Elt F) a5.view.ty)
  (init : FVec F S1x1024 .f32)

/-- Chunk `k` of the resident block: its rows `1024·k …`. -/
abbrev rowChunk (k : Fin k0_t1_loop.trips) : Vec F S1x1024x3 .f32 :=
  a3.view.readAt (Elt F) (Rect.unit (s := S1x4096x3) (k0_off1 k) S1x1024x3.size (k0_off1_inb k)).toLoadRect X

/-- Lanes `1024·k …` of column-buffer contents `f`. -/
abbrev laneChunk (f : BufTy.Contents (Elt F) a5.view.ty) (k : Fin k0_t1_loop.trips) : Vec F S1x1x1024 .f32 :=
  a5.view.readAt (Elt F) (Rect.unit (s := S1x1x4096) (k0_off2 k) S1x1x1024.size (k0_off2_inb k)).toLoadRect f

/-- The store trip `k` makes when it finds `f` in the column buffer. -/
abbrev chunkStore (f : BufTy.Contents (Elt F) a5.view.ty) (k : Fin k0_t1_loop.trips) : View.Piece (Elt F) S1x1x4096 .f32 :=
  ⟨Rect.unit (s := S1x1x4096) (k0_off2 k) S1x1x1024.size (k0_off2_inb k), k0_pay5 v0 (rowChunk a3 X k) (laneChunk a5 f k)⟩

/-- What one trip yields: the row step of its chunk. -/
theorem tripR_eq (k : Fin k0_t1_loop.trips) (acc : FVec F S1x1024 .f32) (f : BufTy.Contents (Elt F) a5.view.ty) :
    tripR_k0_t1 (F := F) Variants.none c none i a2 h2 a3 h3 a4 h4 a5 h5 v0 X k acc f = k0_pay4 v0 acc (rowChunk a3 X k) := by
  unfold tripR_k0_t1 trip_k0_t1
  rfl

/-- What one trip stores: its chunk store, at the contents it finds. -/
theorem tripL_eq (k : Fin k0_t1_loop.trips) (acc : FVec F S1x1024 .f32) (f : BufTy.Contents (Elt F) a5.view.ty) :
    tripL_k0_t1 (F := F) Variants.none c none i a2 h2 a3 h3 a4 h4 a5 h5 v0 X k acc f = [chunkStore a3 a5 v0 X f k] := by
  unfold tripL_k0_t1 trip_k0_t1
  rfl

/-- The loop's state before trip `n`: the carried row vector and the stores made so far (last first). -/
abbrev loopState (n : ℕ) : FVec F S1x1024 .f32 × List (View.Piece (Elt F) S1x1x4096 .f32) :=
  st_k0_t1 (F := F) Variants.none c none i a2 h2 a3 h3 a4 h4 a5 h5 v0 X G init n

theorem loopState_succ (k : Fin k0_t1_loop.trips) :
    loopState c i a2 h2 a3 h3 a4 h4 a5 h5 v0 X G init (k.val + 1)
      = (k0_pay4 v0 (loopState c i a2 h2 a3 h3 a4 h4 a5 h5 v0 X G init k.val).1 (rowChunk a3 X k),
         chunkStore a3 a5 v0 X (a5.view.writes (Elt F) G (loopState c i a2 h2 a3 h3 a4 h4 a5 h5 v0 X G init k.val).2) k
           :: (loopState c i a2 h2 a3 h3 a4 h4 a5 h5 v0 X G init k.val).2) := by
  refine (st_k0_t1_succ (F := F) Variants.none c none i a2 h2 a3 h3 a4 h4 a5 h5 v0 X G init k).trans ?_
  rw [tripR_eq, tripL_eq]
  rfl

/-- The lane range of trip `k`: an index of the column buffer lies in it exactly when its lane is one of `1024·k … 1024·k + 1023`
    (the two leading axes have extent one). -/
theorem mem_laneRect_iff (k : Fin k0_t1_loop.trips) (y : S1x1x4096.Idx) :
    y ∈ (Rect.unit (s := S1x1x4096) (k0_off2 k) S1x1x1024.size (k0_off2_inb k)).set
      ↔ 1024 * k.val ≤ (y 2).val ∧ (y 2).val < 1024 * k.val + 1024 := by
  rw [Rect.mem_set_unit, k0_off2_eq]
  constructor
  · intro h; exact h (2 : Fin 3)
  · intro h a
    match a with
    | ⟨0, _⟩ => have h0 : (y 0).val < 1 := (y 0).isLt; exact ⟨Nat.zero_le _, by show (y 0).val < 0 + 1; omega⟩
    | ⟨1, _⟩ => have h1 : (y 1).val < 1 := (y 1).isLt; exact ⟨Nat.zero_le _, by show (y 1).val < 0 + 1; omega⟩
    | ⟨2, _⟩ => exact h

/-- Where lane `x` of trip `k`'s range sits in the buffer. -/
theorem laneRect_idx_val (k : Fin k0_t1_loop.trips) (x : S1x1x1024.Idx) :
    ((Rect.unit (s := S1x1x4096) (k0_off2 k) S1x1x1024.size (k0_off2_inb k)).idx x 2).val = 1024 * k.val + (x 2).val := by
  show k0_off2 k 2 + 1 * (x 2).val = _
  rw [k0_off2_eq]
  show 1024 * k.val + 1 * (x 2).val = _
  omega

/-- Two contents that agree on trip `k`'s lanes give the same store. -/
theorem chunkStore_congr (f g : BufTy.Contents (Elt F) a5.view.ty) (k : Fin k0_t1_loop.trips)
    (h : laneChunk a5 f k = laneChunk a5 g k) : chunkStore a3 a5 v0 X f k = chunkStore a3 a5 v0 X g k :=
  congrArg (fun z => (⟨Rect.unit (s := S1x1x4096) (k0_off2 k) S1x1x1024.size (k0_off2_inb k), k0_pay5 v0 (rowChunk a3 X k) z⟩ :
    View.Piece (Elt F) S1x1x4096 .f32)) h

/-- Before trip `n` the stores made are exactly the chunk stores of the trips below `n`, each at the contents the buffer
    held when the loop was entered: trip `k` finds its own lanes untouched, the earlier trips having written other lanes. -/
theorem loopState_stores (n : ℕ) (hn : n ≤ k0_t1_loop.trips) :
    (∀ p ∈ (loopState c i a2 h2 a3 h3 a4 h4 a5 h5 v0 X G init n).2, ∃ k : Fin k0_t1_loop.trips, k.val < n ∧ p = chunkStore a3 a5 v0 X G k)
    ∧ (∀ k : Fin k0_t1_loop.trips, k.val < n → chunkStore a3 a5 v0 X G k ∈ (loopState c i a2 h2 a3 h3 a4 h4 a5 h5 v0 X G init n).2) := by
  induction n with
  | zero => exact ⟨fun p hp => absurd hp List.not_mem_nil, fun k hk => absurd hk (Nat.not_lt_zero _)⟩
  | succ n ih =>
    obtain ⟨ih1, ih2⟩ := ih (Nat.le_of_succ_le hn)
    have hlt : n < k0_t1_loop.trips := hn
    have hs : loopState c i a2 h2 a3 h3 a4 h4 a5 h5 v0 X G init (n + 1)
        = (k0_pay4 v0 (loopState c i a2 h2 a3 h3 a4 h4 a5 h5 v0 X G init n).1 (rowChunk a3 X ⟨n, hlt⟩),
           chunkStore a3 a5 v0 X (a5.view.writes (Elt F) G (loopState c i a2 h2 a3 h3 a4 h4 a5 h5 v0 X G init n).2) ⟨n, hlt⟩ :: (loopState c i a2 h2 a3 h3 a4 h4 a5 h5 v0 X G init n).2) :=
      loopState_succ c i a2 h2 a3 h3 a4 h4 a5 h5 v0 X G init ⟨n, hlt⟩
    have hfound : laneChunk a5 (a5.view.writes (Elt F) G (loopState c i a2 h2 a3 h3 a4 h4 a5 h5 v0 X G init n).2) ⟨n, hlt⟩ = laneChunk a5 G ⟨n, hlt⟩ :=
      View.readAt_writes_of_forall_not_mem a5.view G _ _ (fun x p hp hmem => by
        obtain ⟨k, hk, rfl⟩ := ih1 p hp
        have hm := (mem_laneRect_iff k _).mp hmem
        have hx := laneRect_idx_val (⟨n, hlt⟩ : Fin k0_t1_loop.trips) x
        have hx' : ((Rect.unit (s := S1x1x4096) (k0_off2 ⟨n, hlt⟩) S1x1x1024.size (k0_off2_inb ⟨n, hlt⟩)).idx x 2).val = 1024 * n + (x 2).val := hx
        have := hm.2
        omega)
    have hs2 : (loopState c i a2 h2 a3 h3 a4 h4 a5 h5 v0 X G init (n + 1)).2 = chunkStore a3 a5 v0 X G ⟨n, hlt⟩ :: (loopState c i a2 h2 a3 h3 a4 h4 a5 h5 v0 X G init n).2 := by
      rw [hs]
      show chunkStore a3 a5 v0 X (a5.view.writes (Elt F) G (loopState c i a2 h2 a3 h3 a4 h4 a5 h5 v0 X G init n).2) ⟨n, hlt⟩ :: _ = _
      rw [chunkStore_congr a3 a5 v0 X _ G ⟨n, hlt⟩ hfound]
    rw [hs2]
    refine ⟨fun p hp => ?_, fun k hk => ?_⟩
    · rcases List.mem_cons.mp hp with rfl | hp
      · exact ⟨⟨n, hlt⟩, Nat.lt_succ_self n, rfl⟩
      · obtain ⟨k, hk, e⟩ := ih1 p hp
        exact ⟨k, Nat.lt_succ_of_lt hk, e⟩
    · rcases Nat.lt_succ_iff_lt_or_eq.mp hk with hk | hk
      · exact List.mem_cons_of_mem _ (ih2 k hk)
      · obtain rfl : k = ⟨n, hlt⟩ := Fin.ext hk
        exact List.mem_cons_self

/-- The carried row vector before trip `n`: the row step iterated over the chunks below `n`. -/
def carried : ℕ → FVec F S1x1024 .f32
  | 0 => init
  | n + 1 => if h : n < k0_t1_loop.trips then k0_pay4 v0 (carried n) (rowChunk a3 X ⟨n, h⟩) else carried n

theorem loopState_carried (n : ℕ) (hn : n ≤ k0_t1_loop.trips) : (loopState c i a2 h2 a3 h3 a4 h4 a5 h5 v0 X G init n).1 = carried a3 v0 X init n := by
  induction n with
  | zero => rfl
  | succ n ih =>
    have hlt : n < k0_t1_loop.trips := hn
    have hs : loopState c i a2 h2 a3 h3 a4 h4 a5 h5 v0 X G init (n + 1)
        = (k0_pay4 v0 (loopState c i a2 h2 a3 h3 a4 h4 a5 h5 v0 X G init n).1 (rowChunk a3 X ⟨n, hlt⟩),
           chunkStore a3 a5 v0 X (a5.view.writes (Elt F) G (loopState c i a2 h2 a3 h3 a4 h4 a5 h5 v0 X G init n).2) ⟨n, hlt⟩ :: (loopState c i a2 h2 a3 h3 a4 h4 a5 h5 v0 X G init n).2) :=
      loopState_succ c i a2 h2 a3 h3 a4 h4 a5 h5 v0 X G init ⟨n, hlt⟩
    rw [hs]
    show k0_pay4 v0 (loopState c i a2 h2 a3 h3 a4 h4 a5 h5 v0 X G init n).1 (rowChunk a3 X ⟨n, hlt⟩) = carried a3 v0 X init (n + 1)
    rw [ih (Nat.le_of_succ_le hn),
      show carried a3 v0 X init (n + 1) = (if h : n < k0_t1_loop.trips then k0_pay4 v0 (carried a3 v0 X init n) (rowChunk a3 X ⟨n, h⟩)
        else carried a3 v0 X init n) from rfl, dif_pos hlt]

end Loop

end Cert.KernelIdeal.Chamfer

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.LibMinFold.lean ====
/-
  A minimum carried by its lower bounds. In a linear order, a value `v` is "the minimum of `c` and the family `g`"
  exactly when the lower bounds of `v` are the common lower bounds of `c` and of every `g j`. Stated this way a minimum
  taken in pieces — chunk by chunk, or accumulated over several steps from the same starting value — needs no
  re-indexing: the pieces' conditions are conjoined, and two values with the same lower bounds are equal.
-/
import Mathlib.Data.Finset.Fold
import Mathlib.Order.Lattice

namespace MinFold

variable {α : Type*} [LinearOrder α] {ι : Type*}

/-- `v` is the minimum of `c` and the family `g`: its lower bounds are their common lower bounds. -/
def IsMinOf (v c : α) (g : ι → α) : Prop := ∀ a, a ≤ v ↔ a ≤ c ∧ ∀ j, a ≤ g j

/-- Two minima of the same data are equal. -/
theorem IsMinOf.unique {v w c : α} {g : ι → α} (hv : IsMinOf v c g) (hw : IsMinOf w c g) : v = w :=
  le_antisymm ((hw v).mpr ((hv v).mp le_rfl)) ((hv w).mpr ((hw w).mp le_rfl))

/-- A fold of `min` from `c` over a whole finite index type is the minimum of `c` and the family. -/
theorem isMinOf_fold [Fintype ι] (c : α) (g : ι → α) : IsMinOf ((Finset.univ : Finset ι).fold min c g) c g := fun a => by
  rw [Finset.le_fold_min]
  exact ⟨fun h => ⟨h.1, fun j => h.2 j (Finset.mem_univ j)⟩, fun h => ⟨h.1, fun j _ => h.2 j⟩⟩

/-- The lower bounds of a fold of `min`, spelt out. -/
theorem le_fold_univ_iff [Fintype ι] (a c : α) (g : ι → α) :
    a ≤ (Finset.univ : Finset ι).fold min c g ↔ a ≤ c ∧ ∀ j, a ≤ g j := isMinOf_fold c g a

end MinFold
-- ==== Proof.Payload.lean ====
/-
  The body's arithmetic read at an index, over the extended reals.

  For a block `x` of 1024 points and a chunk `y` of 1024 points, each a row of three coordinates, the body forms the
  1024 × 1024 table of squared distances in expanded form,
      d(r, j) = (Σ_d x[r,d]² + Σ_d y[j,d]²) − 2 · Σ_d x[r,d] · y[j,d],
  the last sum being the matrix product of `x` with the transpose of `y` into a zero accumulator. The row step folds
  the minimum over `j` into a carried row vector; the column step takes the minimum over `r` against what the lanes held.
-/
import proofs.«134157_j3212635537690_2_alg».proof.Proof.Gen.KernelIdeal.Skeleton
import proofs.«134157_j3212635537690_2_alg».proof.Proof.LibColumns
import proofs.«134157_j3212635537690_2_alg».proof.Proof.LibMinFold
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Chamfer

open Cert.KernelIdeal Cert.KernelIdeal.Gen

/-- The squared distance between row `r` of `x` and row `j` of `y`, in the expanded form both programs compute. -/
def sqDist (x y : Vec Ideal S1x1024x3 .f32) (r j : Fin 1024) : EReal :=
  ((∑ d : Fin 3, x (ix3 (0 : Fin 1) r d) * x (ix3 (0 : Fin 1) r d)) + (∑ d : Fin 3, y (ix3 (0 : Fin 1) j d) * y (ix3 (0 : Fin 1) j d)))
    - Ideal.ofBits .f32 0x40000000#32 * (∑ d : Fin 3, x (ix3 (0 : Fin 1) r d) * y (ix3 (0 : Fin 1) j d))

/-- A block with its unit axis dropped, read at `(r, d)`. -/
theorem rows_apply (v : Vec Ideal S1x1024x3 .f32) (r : Fin 1024) (d : Fin 3) :
    shapeCast S1024x3 v shapeCasts_S1x1024x3_S1024x3 (ix2 r d) = v (ix3 (0 : Fin 1) r d) :=
  shapeCast_1ab_ab_apply v shapeCasts_S1x1024x3_S1024x3 r d

/-- The same at the index the lane sum visits: row `r` with coordinate `d` put back on the summed axis. -/
theorem rows_lift_apply (v : Vec Ideal S1x1024x3 .f32) (r : Fin 1024) (d : Fin 3) :
    shapeCast S1024x3 v shapeCasts_S1x1024x3_S1024x3 (reduces_S1024x3_S1024.lift (ix1 r) d) = v (ix3 (0 : Fin 1) r d) := by
  rw [show reduces_S1024x3_S1024.lift (ix1 r) d = ix2 r d from
    funext fun a => Fin.ext (by match a with | ⟨0, _⟩ => rfl | ⟨1, _⟩ => rfl)]
  exact rows_apply v r d

/-- The sum of squares of row `r`: the lane sum of the squared block. -/
theorem rowSq_apply (v : Vec Ideal S1x1024x3 .f32) (hacc : (0x00000000#32 : BitVec 32) = 0x00000000#32) (r : Fin 1024) :
    multiReduction (F := Ideal) .add [1] S1024 (mulf (shapeCast S1024x3 v shapeCasts_S1x1024x3_S1024x3) (shapeCast S1024x3 v shapeCasts_S1x1024x3_S1024x3))
        0x00000000#32 reduces_S1024x3_S1024 (.inl rfl) hacc (ix1 r)
      = ∑ d : Fin 3, v (ix3 (0 : Fin 1) r d) * v (ix3 (0 : Fin 1) r d) := by
  refine (Ideal.multiReduction_add_single _ _ reduces_S1024x3_S1024 _ _ (ix1 r)).trans ?_
  refine Finset.sum_congr rfl fun d _ => ?_
  exact congrArg₂ (· * ·) (rows_lift_apply v r d) (rows_lift_apply v r d)

/-- The matrix product's operand indices at output `(r, j)` and contraction coordinate `q`: `(r, q)` on the left and
    `(q, j)` on the right. -/
theorem lhs_0 (i : S1024x1024.Idx) (q : dot_S1024x3_S3x1024_S1024x1024_1_0_0_1_n_n.contr.Idx) : (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl
theorem lhs_1 (i : S1024x1024.Idx) (q : dot_S1024x3_S3x1024_S1024x1024_1_0_0_1_n_n.contr.Idx) : (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs_0 (i : S1024x1024.Idx) (q : dot_S1024x3_S3x1024_S1024x1024_1_0_0_1_n_n.contr.Idx) : (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs_1 (i : S1024x1024.Idx) (q : dot_S1024x3_S3x1024_S1024x1024_1_0_0_1_n_n.contr.Idx) : (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- The inner product of row `r` of `x` with row `j` of `y`: the matrix product of `x` with the transposed chunk, accumulated
    into zero, is the plain sum over the three coordinates. -/
theorem cross_apply (x y : Vec Ideal S1x1024x3 .f32) (r j : Fin 1024) :
    matmul (F := Ideal) (φ₁ := .f32) (φ₂ := .f32) dot_S1024x3_S3x1024_S1024x1024_1_0_0_1_n_n (some .fp32) (shapeCast S1024x3 x shapeCasts_S1x1024x3_S1024x3)
        (transpose S3x1024 [1, 0] (shapeCast S1024x3 y shapeCasts_S1x1024x3_S1024x3) transposes_S1024x3_p1_0_S3x1024)
        (constant S1024x1024 .f32 0x00000000#32) (ix2 r j)
      = ∑ d : Fin 3, x (ix3 (0 : Fin 1) r d) * y (ix3 (0 : Fin 1) j d) := by
  simp only [matmul]
  rw [Ideal.matmul_constant_zero_apply, ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 r j) ((contrEquiv1 dot_S1024x3_S3x1024_S1024x1024_1_0_0_1_n_n 3 rfl rfl).symm k) = ix2 r k := funext fun a => Fin.ext (by
    match a with
    | ⟨0, _⟩ => exact lhs_0 _ _
    | ⟨1, _⟩ => exact (lhs_1 _ _).trans hk)
  have er : dot_S1024x3_S3x1024_S1024x1024_1_0_0_1_n_n.rhsIdx (ix2 r j) ((contrEquiv1 dot_S1024x3_S3x1024_S1024x1024_1_0_0_1_n_n 3 rfl rfl).symm k) = ix2 k j := funext fun a => Fin.ext (by
    match a with
    | ⟨0, _⟩ => exact (rhs_0 _ _).trans hk
    | ⟨1, _⟩ => exact rhs_1 _ _)
  rw [el, er, rows_apply, transpose_ix2_apply, rows_apply]

/-- The distance table at `(r, j)`. -/
theorem pay3_apply (x y : Vec Ideal S1x1024x3 .f32) (r j : Fin 1024) :
    k0_pay3 (F := Ideal) x y (ix2 r j) = sqDist x y r j := by
  unfold k0_pay3 sqDist
  dsimp only
  rw [subf_apply, addf_apply, mulf_apply, broadcast_apply, broadcastTo_a1_ab_apply, shapeCast_a_a1_apply, rowSq_apply,
    broadcastTo_1b_ab_apply, transpose_ix2_apply, shapeCast_a_a1_apply, rowSq_apply, cross_apply]
  rfl

/-- The row step at lane `r`: the carried entry against the minimum of row `r` of the table. -/
theorem pay4_apply (x : Vec Ideal S1x1024x3 .f32) (acc : FVec Ideal S1x1024 .f32) (y : Vec Ideal S1x1024x3 .f32) (r : Fin 1024) :
    k0_pay4 (F := Ideal) x acc y (ix2 (0 : Fin 1) r)
      = min (acc (ix2 (0 : Fin 1) r))
          ((Finset.univ : Finset (Fin 1024)).fold min (Ideal.ofBits .f32 0x7F800000#32) (fun j => sqDist x y r j)) := by
  unfold k0_pay4
  dsimp only
  rw [minimumf_apply, transpose_ix2_apply, shapeCast_a_a1_apply]
  refine congrArg (min _) ?_
  refine (multiReduction_minimumf_eq_fold _ _ reduces_S1024x1024_S1024 _ _ (ix1 r)).trans ?_
  refine (reduces_S1024x1024_S1024.fold_filter_drop_single _ _ _ (ix1 r)).trans ?_
  show (Finset.univ : Finset (Fin 1024)).fold min (Ideal.ofBits .f32 0x7F800000#32) _ = _
  refine Finset.fold_congr fun j _ => ?_
  show k0_pay3 (F := Ideal) x y (reduces_S1024x1024_S1024.lift (ix1 r) j) = _
  rw [show reduces_S1024x1024_S1024.lift (ix1 r) j = ix2 r j from
    funext fun a => Fin.ext (by match a with | ⟨0, _⟩ => rfl | ⟨1, _⟩ => rfl), pay3_apply]

/-- The column step at lane `j`: what the lane held against the minimum of column `j` of the table. -/
theorem pay5_apply (x y : Vec Ideal S1x1024x3 .f32) (old : Vec Ideal S1x1x1024 .f32) (j : Fin 1024) :
    k0_pay5 (F := Ideal) x y old (ix3 (0 : Fin 1) (0 : Fin 1) j)
      = min (old (ix3 (0 : Fin 1) (0 : Fin 1) j))
          ((Finset.univ : Finset (Fin 1024)).fold min (Ideal.ofBits .f32 0x7F800000#32) (fun r => sqDist x y r j)) := by
  unfold k0_pay5
  dsimp only
  rw [shapeCast_ab_1ab_apply, minimumf_apply, shapeCast_1ab_ab_apply, shapeCast_a_1a_apply]
  refine congrArg (min _) ?_
  refine (multiReduction_minimumf_eq_fold _ _ reduces_S1024x1024_S1024_2 _ _ (ix1 j)).trans ?_
  refine (reduces_S1024x1024_S1024_2.fold_filter_drop_single _ _ _ (ix1 j)).trans ?_
  show (Finset.univ : Finset (Fin 1024)).fold min (Ideal.ofBits .f32 0x7F800000#32) _ = _
  refine Finset.fold_congr fun r _ => ?_
  show k0_pay3 (F := Ideal) x y (reduces_S1024x1024_S1024_2.lift (ix1 j) r) = _
  rw [show reduces_S1024x1024_S1024_2.lift (ix1 j) r = ix2 r j from
    funext fun a => Fin.ext (by match a with | ⟨0, _⟩ => rfl | ⟨1, _⟩ => rfl), pay3_apply]

/-- The row vector stored at the end, at lane `r`. -/
theorem pay6_apply (v : FVec Ideal S1x1024 .f32) (r : Fin 1024) :
    k0_pay6 (F := Ideal) v (ix3 (0 : Fin 1) (0 : Fin 1) r) = v (ix2 (0 : Fin 1) r) := by
  unfold k0_pay6
  exact shapeCast_ab_1ab_apply v shapeCasts_S1x1024_S1x1x1024 (0 : Fin 1) (0 : Fin 1) r

/-- The reset value of the column buffer: `+∞`'s word in every lane. -/
theorem pay1_apply (j : Fin 4096) :
    k0_pay1 (F := Ideal) (ix3 (0 : Fin 1) (0 : Fin 1) j) = Ideal.ofBits .f32 0x7F800000#32 := by
  unfold k0_pay1
  exact shapeCast_ab_1ab_apply _ shapeCasts_S1x4096_S1x1x4096 (0 : Fin 1) (0 : Fin 1) j

/-- The row vector the loop starts from: the same word in every lane. -/
theorem pay2_apply (r : Fin 1024) : k0_pay2 (F := Ideal) (ix2 (0 : Fin 1) r) = Ideal.ofBits .f32 0x7F800000#32 := rfl

end Cert.KernelIdeal.Chamfer

end
-- ==== Proof.Point.lean ====
/-
  What one grid point leaves in its two output blocks, over the extended reals.

  A point holds a block `x` of 1024 points of the first operand and the resident block `y` of all 4096 points of the
  second. Writing d(r, j) for the squared distance of row `r` of `x` and row `j` of `y`:
    * the row block ends, at lane `r`, at the minimum of the starting word and every d(r, j), j < 4096 — the loop's
      four chunks together range over all of `y`;
    * the column block ends, at lane `j`, at the minimum of what the lane held before the point, the starting word, and
      every d(r, j), r < 1024 — lane `j` is written once, by the trip whose chunk holds row `j`.
  Both are stated by lower bounds (`a ≤ · ↔ …`), so no chunk index survives into the statement.
-/
import proofs.«134157_j3212635537690_2_alg».proof.Proof.LoopState
import proofs.«134157_j3212635537690_2_alg».proof.Proof.Payload
import Idealize.ShloMosaic.Lib.WholeRead
import Idealize.ShloMosaic.Lib.Pipeline.CanonAppend

set_option maxRecDepth 16384

noncomputable section

open Idealize.ShloMosaic Idealize.ShloMosaic.TcCoe Idealize.SL.Sem Idealize.ShloMosaic.ValueIdx

namespace Cert.KernelIdeal.Chamfer

open Cert.KernelIdeal Cert.KernelIdeal.Gen

/-- The squared distance between row `r` of the block `x` and row `j` of the resident block `y`. -/
def sqDistW (x : Vec Ideal S1x1024x3 .f32) (y : Vec Ideal S1x4096x3 .f32) (r : Fin 1024) (j : Fin 4096) : EReal :=
  ((∑ d : Fin 3, x (ix3 (0 : Fin 1) r d) * x (ix3 (0 : Fin 1) r d)) + (∑ d : Fin 3, y (ix3 (0 : Fin 1) j d) * y (ix3 (0 : Fin 1) j d)))
    - Ideal.ofBits .f32 0x40000000#32 * (∑ d : Fin 3, x (ix3 (0 : Fin 1) r d) * y (ix3 (0 : Fin 1) j d))

/-- Row `j` of chunk `k`, as a row of the resident block. -/
def chunkRow (k : Fin k0_t1_loop.trips) (j : Fin 1024) : Fin 4096 :=
  ⟨1024 * k.val + j.val, by have := k.isLt; have := trips_eq; have := j.isLt; omega⟩

/-- Every row of the resident block is a row of one of the four chunks. -/
theorem exists_chunkRow (j : Fin 4096) : ∃ (k : Fin k0_t1_loop.trips) (j' : Fin 1024), chunkRow k j' = j :=
  ⟨⟨j.val / 1024, by rw [trips_eq]; have := j.isLt; omega⟩, ⟨j.val % 1024, Nat.mod_lt _ (by decide)⟩,
    Fin.ext (by show 1024 * (j.val / 1024) + j.val % 1024 = j.val; omega)⟩

theorem hz3 : (![0, 0, 0] : Fin 3 → Nat) = fun _ => 0 := funext fun a => by fin_cases a <;> rfl

section Point

variable (c : Dev nD) (i : grid0.Coords)
  (a2 : Memref sig .tc .vmem S1x1024x3 .f32) (h2 : a2.IsWhole) (a3 : Memref sig .tc .vmem S1x4096x3 .f32) (h3 : a3.IsWhole)
  (a4 : Memref sig .tc .vmem S1x1x1024 .f32) (h4 : a4.IsWhole) (a5 : Memref sig .tc .vmem S1x1x4096 .f32) (h5 : a5.IsWhole)
  (x0 : Vec Ideal S1x1024x3 .f32) (x1 : Vec Ideal S1x4096x3 .f32)

/-- A chunk of the resident block, held whole at `y`, reads `y` at the chunk's rows. -/
theorem rowChunk_unread (k : Fin k0_t1_loop.trips) (j : Fin 1024) (d : Fin 3) :
    rowChunk a3 (h3.unread x1) k (ix3 (0 : Fin 1) j d) = x1 (ix3 (0 : Fin 1) (chunkRow k j) d) := by
  refine (h3.readAt_unread x1 _ _).trans (congrArg x1 (funext fun a => Fin.ext ?_))
  match a with
  | ⟨0, _⟩ => show k0_off1 k 0 + 1 * 0 = 0; rw [k0_off1_eq]; rfl
  | ⟨1, _⟩ => show k0_off1 k 1 + 1 * j.val = 1024 * k.val + j.val; rw [k0_off1_eq]; show 1024 * k.val + 1 * j.val = _; omega
  | ⟨2, _⟩ => show k0_off1 k 2 + 1 * d.val = d.val; rw [k0_off1_eq]; show 0 + 1 * d.val = _; omega

/-- So a chunk's distance table is the resident block's, at the chunk's rows. -/
theorem sqDist_rowChunk (k : Fin k0_t1_loop.trips) (r j : Fin 1024) :
    sqDist x0 (rowChunk a3 (h3.unread x1) k) r j = sqDistW x0 x1 r (chunkRow k j) := by
  unfold sqDist sqDistW
  simp only [rowChunk_unread]

/-- THE ROW VECTOR before trip `n`, at lane `r`, by its lower bounds: the starting word and the distances to the rows of
    the chunks below `n`. -/
theorem le_carried_iff (n : ℕ) (hn : n ≤ k0_t1_loop.trips) (a : EReal) (r : Fin 1024) :
    a ≤ carried a3 x0 (h3.unread x1) (k0_pay2 (F := Ideal)) n (ix2 (0 : Fin 1) r)
      ↔ a ≤ Ideal.ofBits .f32 0x7F800000#32 ∧ ∀ k : Fin k0_t1_loop.trips, k.val < n → ∀ j : Fin 1024, a ≤ sqDistW x0 x1 r (chunkRow k j) := by
  induction n with
  | zero =>
    show a ≤ k0_pay2 (F := Ideal) (ix2 (0 : Fin 1) r) ↔ _
    rw [pay2_apply]
    exact ⟨fun h => ⟨h, fun k hk => absurd hk (Nat.not_lt_zero _)⟩, fun h => h.1⟩
  | succ n ih =>
    have hlt : n < k0_t1_loop.trips := hn
    rw [show carried a3 x0 (h3.unread x1) (k0_pay2 (F := Ideal)) (n + 1)
        = k0_pay4 x0 (carried a3 x0 (h3.unread x1) (k0_pay2 (F := Ideal)) n) (rowChunk a3 (h3.unread x1) ⟨n, hlt⟩) from dif_pos hlt,
      pay4_apply, le_min_iff, ih (Nat.le_of_succ_le hn), MinFold.le_fold_univ_iff]
    constructor
    · rintro ⟨⟨ha, hb⟩, -, hc⟩
      refine ⟨ha, fun k hk j => ?_⟩
      rcases Nat.lt_succ_iff_lt_or_eq.mp hk with hk | hk
      · exact hb k hk j
      · obtain rfl : k = ⟨n, hlt⟩ := Fin.ext hk
        have := hc j
        rwa [sqDist_rowChunk] at this
    · rintro ⟨ha, hb⟩
      refine ⟨⟨ha, fun k hk j => hb k (Nat.lt_succ_of_lt hk) j⟩, ha, fun j => ?_⟩
      rw [sqDist_rowChunk]
      exact hb ⟨n, hlt⟩ (Nat.lt_succ_self n) j

/-- THE ROW BLOCK a point leaves, at lane `r`: the minimum of the starting word and the distances from row `r` to every
    row of the resident block. -/
theorem le_rowOut_iff (a : EReal) (r : Fin 1024) :
    a ≤ k0_pay6 (F := Ideal) (carried a3 x0 (h3.unread x1) (k0_pay2 (F := Ideal)) k0_t1_loop.trips) (ix3 (0 : Fin 1) (0 : Fin 1) r)
      ↔ a ≤ Ideal.ofBits .f32 0x7F800000#32 ∧ ∀ j : Fin 4096, a ≤ sqDistW x0 x1 r j := by
  rw [pay6_apply, le_carried_iff a3 h3 x0 x1 _ le_rfl]
  refine and_congr_right fun _ => ⟨fun h j => ?_, fun h k _ j => h _⟩
  obtain ⟨k, j', rfl⟩ := exists_chunkRow j
  exact h k k.isLt j'

/-- THE COLUMN STEP over the whole column buffer: lane `j` of contents `old` against the minimum, over the block's rows, of
    the distances to row `j` of the resident block. -/
def colStep (old : Vec Ideal S1x1x4096 .f32) : Vec Ideal S1x1x4096 .f32 := fun y =>
  min (old y) ((Finset.univ : Finset (Fin 1024)).fold min (Ideal.ofBits .f32 0x7F800000#32)
    (fun r => sqDistW x0 x1 r ⟨(y 2).val, (y 2).isLt⟩))

/-- Its lower bounds at lane `j`. -/
theorem le_colStep_iff (old : Vec Ideal S1x1x4096 .f32) (a : EReal) (j : Fin 4096) :
    a ≤ colStep x0 x1 old (ix3 (0 : Fin 1) (0 : Fin 1) j)
      ↔ a ≤ old (ix3 (0 : Fin 1) (0 : Fin 1) j) ∧ a ≤ Ideal.ofBits .f32 0x7F800000#32 ∧ ∀ r : Fin 1024, a ≤ sqDistW x0 x1 r j := by
  unfold colStep
  rw [le_min_iff, MinFold.le_fold_univ_iff]

/-- Every chunk store is the column step restricted to its lanes, when the lanes the trip finds hold `old`. -/
theorem chunkStore_restricts (G : BufTy.Contents (Elt Ideal) a5.view.ty) (old : Vec Ideal S1x1x4096 .f32)
    (hG : ∀ (k : Fin k0_t1_loop.trips) (x : S1x1x1024.Idx), laneChunk a5 G k x = old ((Rect.unit (s := S1x1x4096) (k0_off2 k) S1x1x1024.size (k0_off2_inb k)).idx x))
    (k : Fin k0_t1_loop.trips) (x : S1x1x1024.Idx) :
    (chunkStore a3 a5 x0 (h3.unread x1) G k).2 x = colStep x0 x1 old ((chunkStore a3 a5 x0 (h3.unread x1) G k).1.emb x) := by
  obtain ⟨u, v, l, rfl⟩ : ∃ (u v : Fin 1) (l : Fin 1024), x = ix3 u v l := ⟨x 0, x 1, x 2, eq_ix3 x⟩
  obtain rfl : u = 0 := Subsingleton.elim _ _
  obtain rfl : v = 0 := Subsingleton.elim _ _
  show k0_pay5 (F := Ideal) x0 (rowChunk a3 (h3.unread x1) k) (laneChunk a5 G k) (ix3 (0 : Fin 1) (0 : Fin 1) l) = _
  rw [pay5_apply, hG]
  unfold colStep
  refine congrArg₂ min rfl ?_
  refine Finset.fold_congr fun r _ => ?_
  rw [sqDist_rowChunk]
  exact congrArg (sqDistW x0 x1 r) (Fin.ext (laneRect_idx_val k (ix3 (0 : Fin 1) (0 : Fin 1) l)).symm)

/-- The four chunk stores cover the column buffer. -/
theorem stores_cover (G : BufTy.Contents (Elt Ideal) a5.view.ty) (y : S1x1x4096.Idx) :
    ∃ p ∈ (loopState c i a2 h2 a3 h3 a4 h4 a5 h5 x0 (h3.unread x1) G (k0_pay2 (F := Ideal)) k0_t1_loop.trips).2, y ∈ p.1.set := by
  have hy : (y 2).val < 4096 := (y 2).isLt
  have hk : (y 2).val / 1024 < k0_t1_loop.trips := by rw [trips_eq]; omega
  refine ⟨chunkStore a3 a5 x0 (h3.unread x1) G ⟨(y 2).val / 1024, hk⟩,
    (loopState_stores c i a2 h2 a3 h3 a4 h4 a5 h5 x0 (h3.unread x1) G (k0_pay2 (F := Ideal)) _ le_rfl).2 ⟨(y 2).val / 1024, hk⟩ hk, ?_⟩
  exact (mem_laneRect_iff ⟨(y 2).val / 1024, hk⟩ y).mpr
    ⟨by show 1024 * ((y 2).val / 1024) ≤ _; omega, by show _ < 1024 * ((y 2).val / 1024) + 1024; omega⟩

/-- And each is the column step on its lanes. -/
theorem stores_restrict (G : BufTy.Contents (Elt Ideal) a5.view.ty) (old : Vec Ideal S1x1x4096 .f32)
    (hG : ∀ (k : Fin k0_t1_loop.trips) (x : S1x1x1024.Idx), laneChunk a5 G k x = old ((Rect.unit (s := S1x1x4096) (k0_off2 k) S1x1x1024.size (k0_off2_inb k)).idx x)) :
    ∀ p ∈ (loopState c i a2 h2 a3 h3 a4 h4 a5 h5 x0 (h3.unread x1) G (k0_pay2 (F := Ideal)) k0_t1_loop.trips).2, ∀ x : p.1.shape.Idx, p.2 x = colStep x0 x1 old (p.1.emb x) := by
  intro p hp x
  obtain ⟨k, -, rfl⟩ := (loopState_stores c i a2 h2 a3 h3 a4 h4 a5 h5 x0 (h3.unread x1) G (k0_pay2 (F := Ideal)) _ le_rfl).1 p hp
  exact chunkStore_restricts a3 h3 a5 x0 x1 G old hG k x

/-- Lanes of a column buffer held whole at `old` read `old` there. -/
theorem laneChunk_unread (old : Vec Ideal S1x1x4096 .f32) (k : Fin k0_t1_loop.trips) (x : S1x1x1024.Idx) :
    laneChunk a5 (h5.unread old) k x = old ((Rect.unit (s := S1x1x4096) (k0_off2 k) S1x1x1024.size (k0_off2_inb k)).idx x) :=
  h5.readAt_unread old (Rect.unit (s := S1x1x4096) (k0_off2 k) S1x1x1024.size (k0_off2_inb k)).toLoadRect x

/-- Lanes of a column buffer just reset read the reset value there. -/
theorem laneChunk_reset (k : Fin k0_t1_loop.trips) (x : S1x1x1024.Idx) :
    laneChunk a5 (a5.view.writes (Elt Ideal) a5.view.junk
        [⟨Rect.unit (s := S1x1x4096) ![0, 0, 0] S1x1x4096.size inb_S1x1x4096_S1x1x4096_0_0_0, k0_pay1 (F := Ideal)⟩]) k x
      = k0_pay1 (F := Ideal) ((Rect.unit (s := S1x1x4096) (k0_off2 k) S1x1x1024.size (k0_off2_inb k)).idx x) := by
  refine (congrFun (View.readAt_writes_junk_eq_canon a5.view _ (Rect.unit (s := S1x1x4096) (k0_off2 k) S1x1x1024.size (k0_off2_inb k)).toLoadRect) x).trans ?_
  exact congrFun (View.canon_unit_zero (Val := Elt Ideal) (S := S1x1x4096) (e := .f32) hz3 inb_S1x1x4096_S1x1x4096_0_0_0 (k0_pay1 (F := Ideal))) _

/-! ### The generated per-case contents are these values -/

/-- The row block, first case of the reset condition. -/
theorem outA2_eq (hc : cond0_0 i) :
    out0_A_2 c i a2 h2 a3 h3 a4 h4 a5 h5 hc x0 x1 = k0_pay6 (F := Ideal) (carried a3 x0 (h3.unread x1) (k0_pay2 (F := Ideal)) k0_t1_loop.trips) := by
  unfold out0_A_2
  rw [View.read_writes_eq_canon _ _ _ (cover0_A_2 c i a2 h2 a3 h3 a4 h4 a5 h5 hc x0 x1)]
  unfold kernelRun0_A
  dsimp only
  rw [View.canon_unit_zero hz3]
  simp only [View.readAt_eq_ld, h2.read_unread, View.ld_unit_zero (S := S1x1024x3) hz3]
  exact congrArg (k0_pay6 (F := Ideal)) (loopState_carried c i a2 h2 a3 h3 a4 h4 a5 h5 x0 (h3.unread x1) _ (k0_pay2 (F := Ideal)) _ le_rfl)

/-- The row block, second case. -/
theorem outB2_eq (hc : ¬cond0_0 i) (xo3 : Vec Ideal S1x1x4096 .f32) :
    out0_B_2 c i a2 h2 a3 h3 a4 h4 a5 h5 hc x0 x1 xo3 = k0_pay6 (F := Ideal) (carried a3 x0 (h3.unread x1) (k0_pay2 (F := Ideal)) k0_t1_loop.trips) := by
  unfold out0_B_2
  rw [View.read_writes_eq_canon _ _ _ (cover0_B_2 c i a2 h2 a3 h3 a4 h4 a5 h5 hc x0 x1 xo3)]
  unfold kernelRun0_B
  dsimp only
  rw [View.canon_unit_zero hz3]
  simp only [View.readAt_eq_ld, h2.read_unread, View.ld_unit_zero (S := S1x1024x3) hz3]
  exact congrArg (k0_pay6 (F := Ideal)) (loopState_carried c i a2 h2 a3 h3 a4 h4 a5 h5 x0 (h3.unread x1) _ (k0_pay2 (F := Ideal)) _ le_rfl)

/-- The column block, second case: the column step of what the block held. -/
theorem outB3_apply (hc : ¬cond0_0 i) (xo3 : Vec Ideal S1x1x4096 .f32) (y : S1x1x4096.Idx) :
    out0_B_3 c i a2 h2 a3 h3 a4 h4 a5 h5 hc x0 x1 xo3 y = colStep x0 x1 xo3 y := by
  unfold out0_B_3
  rw [View.read_writes_eq_canon _ _ _ (cover0_B_3 c i a2 h2 a3 h3 a4 h4 a5 h5 hc x0 x1 xo3)]
  unfold kernelRun0_B
  dsimp only
  simp only [View.readAt_eq_ld, h2.read_unread, View.ld_unit_zero (S := S1x1024x3) hz3]
  exact View.canon_apply_of_pieces (colStep x0 x1 xo3) _
    (stores_restrict c i a2 h2 a3 h3 a4 h4 a5 h5 x0 x1 (h5.unread xo3) xo3 (laneChunk_unread a5 h5 xo3)) y
    (stores_cover c i a2 h2 a3 h3 a4 h4 a5 h5 x0 x1 (h5.unread xo3) y)

/-- The column block, first case: the block is first reset to the starting word, then stepped. -/
theorem outA3_apply (hc : cond0_0 i) (y : S1x1x4096.Idx) :
    out0_A_3 c i a2 h2 a3 h3 a4 h4 a5 h5 hc x0 x1 y = colStep x0 x1 (k0_pay1 (F := Ideal)) y := by
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h2.read_unread, View.ld_unit_zero (S := S1x1024x3) hz3]
  exact View.canon_append_of_pieces (colStep x0 x1 (k0_pay1 (F := Ideal))) _ _
    (stores_restrict c i a2 h2 a3 h3 a4 h4 a5 h5 x0 x1 _ (k0_pay1 (F := Ideal)) (laneChunk_reset a5)) y
    (stores_cover c i a2 h2 a3 h3 a4 h4 a5 h5 x0 x1 _ y)

end Point

end Cert.KernelIdeal.Chamfer

end
-- ==== Proof.Spec.lean ====
/-
  The quantity both programs compute, over the extended reals.

  Two clouds of 4096 points in three coordinates, in each of 16 batches. With D(b, i, j) the squared distance between
  point `i` of the first cloud and point `j` of the second, written in the expanded form |x|² + |y|² − 2⟨x, y⟩, the result is
      Σ_b Σ_i min_j D(b, i, j)  +  Σ_b Σ_j min_i D(b, i, j),
  each minimum folded from a starting word and each sum from a starting word. One program lays the minima out as
  `[16, 1, 4096]` arrays and adds the two sums in one order; the other lays them out as `[16, 4096]` and adds them in the
  other order. The sums agree by re-indexing along the unit axis, and the extended reals' addition commutes.
-/
import Idealize.ShloMosaic.PureOps.Ideal
import Idealize.ShloMosaic.Lib.ValueIdx

noncomputable section

open Idealize.ShloMosaic Idealize.ShloMosaic.ValueIdx

namespace Cert.Chamfer

/-- A batch of point clouds, the minima with a unit middle axis, and the minima without it. -/
abbrev Pts : Shape := ⟨3, ![16, 4096, 3]⟩
abbrev MinsU : Shape := ⟨3, ![16, 1, 4096]⟩
abbrev Mins : Shape := ⟨2, ![16, 4096]⟩

/-- The squared distance between point `i` of `A` and point `j` of `B` in batch `b`, in expanded form. -/
def sqDistB (A B : Vec Ideal Pts .f32) (b : Fin 16) (i j : Fin 4096) : EReal :=
  ((∑ d : Fin 3, A (ix3 b i d) * A (ix3 b i d)) + (∑ d : Fin 3, B (ix3 b j d) * B (ix3 b j d)))
    - Ideal.ofBits .f32 0x40000000#32 * (∑ d : Fin 3, A (ix3 b i d) * B (ix3 b j d))

/-- For each point of `A`, the least distance to a point of `B` (from the starting word). -/
def rowMin (A B : Vec Ideal Pts .f32) (b : Fin 16) (i : Fin 4096) : EReal :=
  (Finset.univ : Finset (Fin 4096)).fold min (Ideal.ofBits .f32 0x7F800000#32) (fun j => sqDistB A B b i j)

/-- For each point of `B`, the least distance to a point of `A`. -/
def colMin (A B : Vec Ideal Pts .f32) (b : Fin 16) (j : Fin 4096) : EReal :=
  (Finset.univ : Finset (Fin 4096)).fold min (Ideal.ofBits .f32 0x7F800000#32) (fun i => sqDistB A B b i j)

/-- The two as `[16, 1, 4096]` arrays. -/
def rowArr (A B : Vec Ideal Pts .f32) : Vec Ideal MinsU .f32 :=
  fun y => rowMin A B ⟨(y 0).val, (y 0).isLt⟩ ⟨(y 2).val, (y 2).isLt⟩
def colArr (A B : Vec Ideal Pts .f32) : Vec Ideal MinsU .f32 :=
  fun y => colMin A B ⟨(y 0).val, (y 0).isLt⟩ ⟨(y 2).val, (y 2).isLt⟩

/-- Dropping the unit middle axis. -/
def dropUnit : MinsU.Idx ≃ Mins.Idx where
  toFun y := ix2 (⟨(y 0).val, (y 0).isLt⟩ : Fin 16) (⟨(y 2).val, (y 2).isLt⟩ : Fin 4096)
  invFun q := ix3 (⟨(q 0).val, (q 0).isLt⟩ : Fin 16) (0 : Fin 1) (⟨(q 1).val, (q 1).isLt⟩ : Fin 4096)
  left_inv y := funext fun a => by
    match a with
    | ⟨0, _⟩ => rfl
    | ⟨1, _⟩ => exact Subsingleton.elim (α := Fin 1) _ _
    | ⟨2, _⟩ => rfl
  right_inv q := funext fun a => by
    match a with
    | ⟨0, _⟩ => rfl
    | ⟨1, _⟩ => rfl

/-- A sum over `[16, 1, 4096]` of a function of the two outer coordinates is the sum over `[16, 4096]`. -/
theorem sum_dropUnit (g : Fin 16 → Fin 4096 → EReal) :
    ∑ y : MinsU.Idx, g ⟨(y 0).val, (y 0).isLt⟩ ⟨(y 2).val, (y 2).isLt⟩
      = ∑ q : Mins.Idx, g ⟨(q 0).val, (q 0).isLt⟩ ⟨(q 1).val, (q 1).isLt⟩ :=
  Fintype.sum_equiv dropUnit _ _ fun _ => rfl

/-- The result as the kernel forms it: the sum of the row minima, then the sum of the column minima, both over `[16, 1, 4096]`. -/
def totalU (A B : Vec Ideal Pts .f32) : EReal :=
  (Ideal.ofBits .f32 0x00000000#32 + ∑ y : MinsU.Idx, rowArr A B y) + (Ideal.ofBits .f32 0x00000000#32 + ∑ y : MinsU.Idx, colArr A B y)

/-- The result as the reference forms it: the column minima first, both over `[16, 4096]`. -/
def total (A B : Vec Ideal Pts .f32) : EReal :=
  (Ideal.ofBits .f32 0x00000000#32 + ∑ q : Mins.Idx, colMin A B ⟨(q 0).val, (q 0).isLt⟩ ⟨(q 1).val, (q 1).isLt⟩)
    + (Ideal.ofBits .f32 0x00000000#32 + ∑ q : Mins.Idx, rowMin A B ⟨(q 0).val, (q 0).isLt⟩ ⟨(q 1).val, (q 1).isLt⟩)

/-- The two are one extended real. -/
theorem totalU_eq_total (A B : Vec Ideal Pts .f32) : totalU A B = total A B := by
  unfold totalU total rowArr colArr
  rw [sum_dropUnit (rowMin A B), sum_dropUnit (colMin A B), add_comm]

end Cert.Chamfer

end
-- ==== Proof.Arrays.lean ====
/-
  From the grid's points to the two result arrays.

  The grid is 16 batches × 4 row blocks; point `t` is batch `t / 4`, row block `t % 4`. Its first window holds rows
  `1024·(t % 4) …` of the first operand's batch, its second window the second operand's whole batch. Writing
  D(b, i, j) for the squared distance between point `i` of the first operand and point `j` of the second in batch `b`:
    * the row block of point `t` is written back at once and holds, at lane `r`, min_j D(b, 1024·(t % 4) + r, j);
    * the column block is carried across the four points of a batch and written back after the last; after point `t` it
      holds, at lane `j`, the minimum of D(b, i, j) over the rows `i` of the row blocks visited so far.
  So the first result array is `(b, i) ↦ min_j D(b, i, j)` and the second `(b, j) ↦ min_i D(b, i, j)`.
-/
import proofs.«134157_j3212635537690_2_alg».proof.Proof.Point
import proofs.«134157_j3212635537690_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen Cert.Chamfer

theorem lt64 (t : Fin cfg0.N) : t.val < 64 := lt_of_lt_of_eq t.isLt (show cfg0.N = 64 from N_0)

/-- Point `t`'s batch, and the row of the batch that lane `r` of its row block is. -/
def ptBatch (t : Fin cfg0.N) : Fin 16 := ⟨t.val / 4, by have := lt64 t; omega⟩
def ptRow (t : Fin cfg0.N) (r : Fin 1024) : Fin 4096 := ⟨1024 * (t.val % 4) + r.val, by have := r.isLt; omega⟩

/-- The windows' block indices at point `t`, decided over the grid. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0 :=
  (by decide +kernel : ∀ t : Fin grid0.N, _)

variable (m : (ℓ : Loc nD τ sig) → Buf (Elt Ideal) ℓ) (c : Dev nD)

/-- The first window's block at point `t`: rows `1024·(t % 4) …` of batch `t / 4` of the first operand. -/
theorem iblk0_apply (t : Fin cfg0.N) (r : Fin 1024) (d : Fin 3) :
    (iblk m c 0 t : Vec Ideal S1x1024x3 .f32) (ix3 (0 : Fin 1) r d) = (V m c main_arg1) (ix3 (ptBatch t) (ptRow t r) d) := by
  obtain ⟨e0, e1, e2, -⟩ := idx_facts t
  unfold iblk
  rw [View.read_apply]
  show (V m c main_arg1) _ = (V m c main_arg1) _
  refine congrArg (V m c main_arg1) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 3 + 1 * d.val = d.val; omega

/-- The second window's block: the whole batch `t / 4` of the second operand. -/
theorem iblk1_apply (t : Fin cfg0.N) (j : Fin 4096) (d : Fin 3) :
    (iblk m c 1 t : Vec Ideal S1x4096x3 .f32) (ix3 (0 : Fin 1) j d) = (V m c main_arg0) (ix3 (ptBatch t) j d) := by
  obtain ⟨-, -, -, e0, e1, e2, -⟩ := idx_facts t
  unfold iblk
  rw [View.read_apply]
  show (V m c main_arg0) _ = (V m c main_arg0) _
  refine congrArg (V m c main_arg0) (funext fun a => Fin.ext ?_)
  match a with
  | ⟨0, _⟩ => show win0_1.index t (0 : Fin 3) * 1 + 1 * 0 = t.val / 4; omega
  | ⟨1, _⟩ => show win0_1.index t (1 : Fin 3) * 4096 + 1 * j.val = j.val; omega
  | ⟨2, _⟩ => show win0_1.index t (2 : Fin 3) * 3 + 1 * d.val = d.val; omega

/-- So a point's distance table is the batch's, at the point's rows. -/
theorem sqDistW_iblk (t : Fin cfg0.N) (r : Fin 1024) (j : Fin 4096) :
    sqDistW (iblk m c 0 t) (iblk m c 1 t) r j = sqDistB (V m c main_arg1) (V m c main_arg0) (ptBatch t) (ptRow t r) j := by
  unfold sqDistW sqDistB
  simp only [iblk0_apply, iblk1_apply]

/-! ### The row block -/

/-- What point `t` leaves in the row block is the row vector after the loop's four trips, in either case of the reset. -/
theorem rowAt_eq (t : Fin cfg0.N) :
    (outsAt0 m c t.val t.isLt).1
      = k0_pay6 (F := Ideal) (carried (ms0_1 t) (iblk m c 0 t) ((hs0_1 t).unread (iblk m c 1 t)) (k0_pay2 (F := Ideal)) k0_t1_loop.trips) := by
  by_cases h0 : t.val % 4 = 0
  · rw [outsAt0_A m c t h0]
    dsimp only
    exact outA2_eq c (grid0.coords t) (ms0_0 t) (hs0_0 t) (ms0_1 t) (hs0_1 t) (ms0_2 t) (hs0_2 t) (ms0_3 t) (hs0_3 t) (iblk m c 0 t) (iblk m c 1 t) ((hcond0_0 t).mpr h0)
  · rw [outsAt0_B m c t h0]
    dsimp only
    exact outB2_eq c (grid0.coords t) (ms0_0 t) (hs0_0 t) (ms0_1 t) (hs0_1 t) (ms0_2 t) (hs0_2 t) (ms0_3 t) (hs0_3 t) (iblk m c 0 t) (iblk m c 1 t) (fun h => h0 ((hcond0_0 t).mp h)) _

/-- Its lower bounds at lane `r`. -/
theorem le_rowAt_iff (t : Fin cfg0.N) (a : EReal) (r : Fin 1024) :
    a ≤ (outsAt0 m c t.val t.isLt).1 (ix3 (0 : Fin 1) (0 : Fin 1) r)
      ↔ a ≤ Ideal.ofBits .f32 0x7F800000#32 ∧ ∀ j : Fin 4096, a ≤ sqDistB (V m c main_arg1) (V m c main_arg0) (ptBatch t) (ptRow t r) j := by
  rw [rowAt_eq m c t]
  refine (le_rowOut_iff (ms0_1 t) (hs0_1 t) (iblk m c 0 t) (iblk m c 1 t) a r).trans ?_
  simp only [sqDistW_iblk]

/-! ### The column block -/

/-- One column step at point `t`, by its lower bounds. -/
theorem le_colStep_iblk_iff (t : Fin cfg0.N) (old : Vec Ideal S1x1x4096 .f32) (a : EReal) (j : Fin 4096) :
    a ≤ colStep (iblk m c 0 t) (iblk m c 1 t) old (ix3 (0 : Fin 1) (0 : Fin 1) j)
      ↔ a ≤ old (ix3 (0 : Fin 1) (0 : Fin 1) j) ∧ a ≤ Ideal.ofBits .f32 0x7F800000#32
          ∧ ∀ r : Fin 1024, a ≤ sqDistB (V m c main_arg1) (V m c main_arg0) (ptBatch t) (ptRow t r) j := by
  refine (le_colStep_iff (iblk m c 0 t) (iblk m c 1 t) old a j).trans ?_
  simp only [sqDistW_iblk]

/-- The rows of the batch visited up to and including point `t`: those below `1024·(t % 4 + 1)`. A row below that bound and
    not below `1024·(t % 4)` is a lane of point `t`'s own row block. -/
theorem exists_ptRow (t : Fin cfg0.N) (i : Fin 4096) (h1 : 1024 * (t.val % 4) ≤ i.val) (h2 : i.val < 1024 * (t.val % 4 + 1)) :
    ∃ r : Fin 1024, ptRow t r = i :=
  ⟨⟨i.val - 1024 * (t.val % 4), by omega⟩, Fin.ext (by show 1024 * (t.val % 4) + (i.val - 1024 * (t.val % 4)) = i.val; omega)⟩

/-- At the first point of a batch the block is reset and stepped once. -/
theorem le_colAt_first (t : Fin cfg0.N) (h0 : t.val % 4 = 0) (a : EReal) (j : Fin 4096) :
    a ≤ (outsAt0 m c t.val t.isLt).2 (ix3 (0 : Fin 1) (0 : Fin 1) j)
      ↔ a ≤ Ideal.ofBits .f32 0x7F800000#32 ∧ ∀ i : Fin 4096, i.val < 1024 * (t.val % 4 + 1) → a ≤ sqDistB (V m c main_arg1) (V m c main_arg0) (ptBatch t) i j := by
  rw [outsAt0_A m c t h0]
  dsimp only
  rw [outA3_apply c (grid0.coords t) (ms0_0 t) (hs0_0 t) (ms0_1 t) (hs0_1 t) (ms0_2 t) (hs0_2 t) (ms0_3 t) (hs0_3 t) (iblk m c 0 t) (iblk m c 1 t) ((hcond0_0 t).mpr h0), le_colStep_iblk_iff, pay1_apply]
  constructor
  · rintro ⟨ha, -, hr⟩
    refine ⟨ha, fun i hi => ?_⟩
    obtain ⟨r, rfl⟩ := exists_ptRow t i (by omega) hi
    exact hr r
  · rintro ⟨ha, hi⟩
    exact ⟨ha, ha, fun r => hi _ (by show 1024 * (t.val % 4) + r.val < _; have := r.isLt; omega)⟩

/-- At a later point of a batch the block is stepped from what the point before left. -/
theorem le_colAt_later (t : Fin cfg0.N) (h0 : ¬t.val % 4 = 0)
    (ih : ∀ (a : EReal) (j : Fin 4096),
      a ≤ (outsAt0 m c (t.val - 1) (Nat.lt_of_le_of_lt (Nat.sub_le _ _) t.isLt)).2 (ix3 (0 : Fin 1) (0 : Fin 1) j)
        ↔ a ≤ Ideal.ofBits .f32 0x7F800000#32 ∧ ∀ i : Fin 4096, i.val < 1024 * ((t.val - 1) % 4 + 1) →
            a ≤ sqDistB (V m c main_arg1) (V m c main_arg0) (ptBatch ⟨t.val - 1, Nat.lt_of_le_of_lt (Nat.sub_le _ _) t.isLt⟩) i j)
    (a : EReal) (j : Fin 4096) :
    a ≤ (outsAt0 m c t.val t.isLt).2 (ix3 (0 : Fin 1) (0 : Fin 1) j)
      ↔ a ≤ Ideal.ofBits .f32 0x7F800000#32 ∧ ∀ i : Fin 4096, i.val < 1024 * (t.val % 4 + 1) → a ≤ sqDistB (V m c main_arg1) (V m c main_arg0) (ptBatch t) i j := by
  have hb : ptBatch ⟨t.val - 1, Nat.lt_of_le_of_lt (Nat.sub_le _ _) t.isLt⟩ = ptBatch t :=
    Fin.ext (by show (t.val - 1) / 4 = t.val / 4; omega)
  have hm : (t.val - 1) % 4 + 1 = t.val % 4 := by omega
  rw [outsAt0_B m c t h0]
  dsimp only
  rw [outB3_apply c (grid0.coords t) (ms0_0 t) (hs0_0 t) (ms0_1 t) (hs0_1 t) (ms0_2 t) (hs0_2 t) (ms0_3 t) (hs0_3 t) (iblk m c 0 t) (iblk m c 1 t) (fun h => h0 ((hcond0_0 t).mp h)), le_colStep_iblk_iff, ih, hb, hm]
  constructor
  · rintro ⟨⟨ha, hlo⟩, -, hr⟩
    refine ⟨ha, fun i hi => ?_⟩
    by_cases hlt : i.val < 1024 * (t.val % 4)
    · exact hlo i hlt
    · obtain ⟨r, rfl⟩ := exists_ptRow t i (by omega) hi
      exact hr r
  · rintro ⟨ha, hi⟩
    exact ⟨⟨ha, fun i hlt => hi i (by omega)⟩, ha,
      fun r => hi _ (by show 1024 * (t.val % 4) + r.val < _; have := r.isLt; omega)⟩

/-- THE COLUMN BLOCK after point `t`, at lane `j`: the minimum over the rows visited so far in the batch. -/
theorem le_colAt_iff (t : Fin cfg0.N) : ∀ (a : EReal) (j : Fin 4096),
    a ≤ (outsAt0 m c t.val t.isLt).2 (ix3 (0 : Fin 1) (0 : Fin 1) j)
      ↔ a ≤ Ideal.ofBits .f32 0x7F800000#32 ∧ ∀ i : Fin 4096, i.val < 1024 * (t.val % 4 + 1) → a ≤ sqDistB (V m c main_arg1) (V m c main_arg0) (ptBatch t) i j := by
  obtain ⟨n, hn⟩ := t
  induction n with
  | zero => exact le_colAt_first m c ⟨0, hn⟩ rfl
  | succ n ih =>
    by_cases h0 : (n + 1) % 4 = 0
    · exact le_colAt_first m c ⟨n + 1, hn⟩ h0
    · exact le_colAt_later m c ⟨n + 1, hn⟩ h0 (ih (Nat.lt_of_succ_lt hn))

end Cert.KernelIdeal.Chamfer

end
-- ==== Proof.Results.lean ====
/-
  The two result arrays after the run.

  The row blocks are written back at every point and tile the first result array `[16, 1, 4096]`: point `t` writes lanes
  `1024·(t % 4) …` of batch `t / 4`. The column block of a batch is written back once, after the batch's last point, and
  is the batch's whole row of the second result array. Each written block is the corresponding block of one whole-array
  function, so the arrays end holding those functions.
-/
import proofs.«134157_j3212635537690_2_alg».proof.Proof.Arrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen Cert.Chamfer

variable (m : (ℓ : Loc nD τ sig) → Buf (Elt Ideal) ℓ) (c : Dev nD)

/-- Every lane index of a `[1, 1, n]` block is `(0, 0, l)`. -/
theorem eq_lane {n : ℕ} (y : (⟨3, ![1, 1, n]⟩ : Shape).Idx) : y = ix3 (0 : Fin 1) (0 : Fin 1) (y 2) := by
  funext a
  match a with
  | ⟨0, _⟩ => exact Subsingleton.elim (α := Fin 1) _ _
  | ⟨1, _⟩ => exact Subsingleton.elim (α := Fin 1) _ _
  | ⟨2, _⟩ => rfl

/-- WHAT POINT `t` WRITES BACK through the first output window is its block of `(b, i) ↦ min_j D(b, i, j)`. -/
theorem flushed2_eq (t : Fin cfg0.N) :
    (dats m 0 c).flushed 2 t = ((cfg0.win 2).blk t).view.read (Elt Ideal) (rowArr (V m c main_arg1) (V m c main_arg0)) := by
  obtain ⟨-, -, -, -, -, -, e0, e1, e2, -⟩ := idx_facts t
  show (cfg0.win 2).cut (grid0.coords t) ((dats m 0 c).after 2 t) = _
  rw [after0_2]
  funext y
  show (outsAt0 m c t.val t.isLt).1 y = rowArr (V m c main_arg1) (V m c main_arg0) (((cfg0.win 2).blk t).view.emb y)
  obtain ⟨r, rfl⟩ : ∃ r : Fin 1024, y = ix3 (0 : Fin 1) (0 : Fin 1) r := ⟨y 2, eq_lane y⟩
  have hy : ((cfg0.win 2).blk t).view.emb (ix3 (0 : Fin 1) (0 : Fin 1) r) = ix3 (ptBatch t) (0 : Fin 1) (ptRow t r) := by
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 1024 + 1 * r.val = 1024 * (t.val % 4) + r.val; omega
  rw [hy]
  refine eq_of_forall_le_iff fun a => ?_
  rw [le_rowAt_iff]
  show _ ↔ a ≤ rowMin (V m c main_arg1) (V m c main_arg0) (ptBatch t) (ptRow t r)
  unfold rowMin
  rw [MinFold.le_fold_univ_iff]

/-- WHAT IS WRITTEN BACK through the second output window — after the last point of a batch only — is the batch's row of
    `(b, j) ↦ min_i D(b, i, j)`: by then the visited rows are all 4096. -/
theorem flushed3_eq (t : Fin cfg0.N) (hf : (cfg0.win 3).flush t = true) :
    (dats m 0 c).flushed 3 t = ((cfg0.win 3).blk t).view.read (Elt Ideal) (colArr (V m c main_arg1) (V m c main_arg0)) := by
  have h3 : t.val % 4 = 3 := (flush0_3 t).mp hf
  obtain ⟨-, -, -, -, -, -, -, -, -, e0, e1, e2⟩ := idx_facts t
  show (cfg0.win 3).cut (grid0.coords t) ((dats m 0 c).after 3 t) = _
  rw [after0_3]
  funext y
  show (outsAt0 m c t.val t.isLt).2 y = colArr (V m c main_arg1) (V m c main_arg0) (((cfg0.win 3).blk t).view.emb y)
  obtain ⟨j, rfl⟩ : ∃ j : Fin 4096, y = ix3 (0 : Fin 1) (0 : Fin 1) j := ⟨y 2, eq_lane y⟩
  have hy : ((cfg0.win 3).blk t).view.emb (ix3 (0 : Fin 1) (0 : Fin 1) j) = ix3 (ptBatch t) (0 : Fin 1) j := by
    funext a; apply Fin.ext
    match a with
    | ⟨0, _⟩ => show win0_3.index t (0 : Fin 3) * 1 + 1 * 0 = t.val / 4; omega
    | ⟨1, _⟩ => show win0_3.index t (1 : Fin 3) * 1 + 1 * 0 = 0; omega
    | ⟨2, _⟩ => show win0_3.index t (2 : Fin 3) * 4096 + 1 * j.val = j.val; omega
  rw [hy]
  refine eq_of_forall_le_iff fun a => ?_
  rw [le_colAt_iff]
  show _ ↔ a ≤ colMin (V m c main_arg1) (V m c main_arg0) (ptBatch t) j
  unfold colMin
  rw [MinFold.le_fold_univ_iff, h3]
  exact and_congr_right fun _ => ⟨fun h i => h i i.isLt, fun h i _ => h i⟩

/-- An index of a result array is in point `t`'s block of a window iff each coordinate is in the block's range. -/
theorem mem_blk2 (t : Fin cfg0.N) (i : S16x1x4096.Idx) :
    i ∈ ((cfg0.win 2).blk t).view.set ↔ ∀ a : Fin 3, win0_2.index t a * S1x1x1024.size a ≤ (i a).val
      ∧ (i a).val < win0_2.index t a * S1x1x1024.size a + S1x1x1024.size a := by
  show i ∈ ((View.whole main_v0_0).slice (win0_2.rect t)).set ↔ _
  rw [View.set_slice_whole, Rect.mem_set_unit]
  exact Iff.rfl
theorem mem_blk3 (t : Fin cfg0.N) (i : S16x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- The row blocks tile the first result array: lane `l` of batch `b` is in the block of point `4·b + l / 1024`. -/
theorem cover2 (i : S16x1x4096.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 4096 := (i 2).isLt
  have hN : 4 * (i 0).val + (i 2).val / 1024 < cfg0.N := by rw [show cfg0.N = 64 from N_0]; omega
  refine ⟨⟨4 * (i 0).val + (i 2).val / 1024, hN⟩, flush0_2 _, ?_⟩
  obtain ⟨-, -, -, -, -, -, e0, e1, e2, -⟩ := idx_facts ⟨4 * (i 0).val + (i 2).val / 1024, hN⟩
  have e0' : win0_2.index ⟨4 * (i 0).val + (i 2).val / 1024, hN⟩ (0 : Fin 3) = (4 * (i 0).val + (i 2).val / 1024) / 4 := e0
  have e2' : win0_2.index ⟨4 * (i 0).val + (i 2).val / 1024, hN⟩ (2 : Fin 3) = (4 * (i 0).val + (i 2).val / 1024) % 4 := e2
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1024 ≤ (i 2).val ∧ (i 2).val < win0_2.index _ (2 : Fin 3) * 1024 + 1024; omega

/-- The column blocks written back tile the second: batch `b`'s row is the block of the batch's last point `4·b + 3`. -/
theorem cover3 (i : S16x1x4096.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  have hN : 4 * (i 0).val + 3 < cfg0.N := by rw [show cfg0.N = 64 from N_0]; omega
  refine ⟨⟨4 * (i 0).val + 3, hN⟩, (flush0_3 _).mpr (by show (4 * (i 0).val + 3) % 4 = 3; omega), ?_⟩
  obtain ⟨-, -, -, -, -, -, -, -, -, e0, e1, e2⟩ := idx_facts ⟨4 * (i 0).val + 3, hN⟩
  have e0' : win0_3.index ⟨4 * (i 0).val + 3, hN⟩ (0 : Fin 3) = (4 * (i 0).val + 3) / 4 := e0
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 4096 ≤ (i 2).val ∧ (i 2).val < win0_3.index _ (2 : Fin 3) * 4096 + 4096; omega

/-- THE FIRST RESULT ARRAY after the run. -/
theorem final2 : (dats m 0 c).arrAt 2 cfg0.N = rowArr (V m c main_arg1) (V m c main_arg0) :=
  (dats m 0 c).arrAt_eq_of_cover 2 (rowArr (V m c main_arg1) (V m c main_arg0)) (fun t _ => flushed2_eq m c t) cover2

/-- THE SECOND RESULT ARRAY after the run. -/
theorem final3 : (dats m 0 c).arrAt 3 cfg0.N = colArr (V m c main_arg1) (V m c main_arg0) :=
  (dats m 0 c).arrAt_eq_of_cover 3 (colArr (V m c main_arg1) (V m c main_arg0)) (flushed3_eq m c) cover3

end Cert.KernelIdeal.Chamfer

end
-- ==== Proof.KernelRun.lean ====
/-
  The kernel program's run, read: after the call the host sums each `[16, 1, 4096]` result array over all its entries from
  a starting word and adds the two sums. With the arrays at the row and column minima, the scalar result is the common
  quantity of the second argument (the first cloud) against the first.
-/
import proofs.«134157_j3212635537690_2_alg».proof.Proof.Results
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chamfer

open Cert.KernelIdeal Cert.KernelIdeal.Gen Cert.Chamfer

variable (m : (ℓ : Loc nD τ sig) → Buf (Elt Ideal) ℓ) (ρ : Dev nD → PrngReg)

/-- The host's sum of a `[16, 1, 4096]` array over every axis: the starting word plus the sum of all entries. -/
theorem sumAll_apply (X : Vec Ideal S16x1x4096 .f32) (i : S_.Idx) :
    Host.reduceAdd (F := Ideal) X (constant (F := Ideal) S_ .f32 0x00000000#32) reducesTo_S16x1x4096_S_d0_1_2 h_S_ i
      = Ideal.ofBits .f32 0x00000000#32 + ∑ y : S16x1x4096.Idx, X y := by
  simp only [Host.reduceAdd, Ideal.hostReduceAdd_def]
  exact Ideal.hostReduceAdd_total reducesTo_S16x1x4096_S_d0_1_2 (fun b => b.elim0) X _ i

/-- The host lines after the call, over the two result arrays as the call leaves them. -/
theorem tail_eq (c : Dev nD) :
    Pipeline.afterTail₀ cfgs (dats m) 0 (V0 m) [hostOps1] c main_v3
      = addf (Host.reduceAdd (F := Ideal) (rowArr (V m c main_arg1) (V m c main_arg0)) (constant (F := Ideal) S_ .f32 0x00000000#32) reducesTo_S16x1x4096_S_d0_1_2 h_S_)
          (Host.reduceAdd (F := Ideal) (colArr (V m c main_arg1) (V m c main_arg0)) (constant (F := Ideal) S_ .f32 0x00000000#32) reducesTo_S16x1x4096_S_d0_1_2 h_S_) := by
  unfold Pipeline.afterTail₀
  show StableHlo.after hostOps1 _ (Proc.devRef .tc main_v3) = _
  after_results
  rw [Pipeline.withArrays_arr spec0 launch0.win.arr_inj c _ _ 2, Pipeline.withArrays_arr spec0 launch0.win.arr_inj c _ _ 3,
    final2, final3]

/-- So the scalar the program returns is the common quantity. -/
theorem result_eq (c : Dev nD) :
    Pipeline.afterTail₀ cfgs (dats m) 0 (V0 m) [hostOps1] c main_v3
      = fun _ => total (m ((c.tc : Thread nD τ).loc main_arg1)) (m ((c.tc : Thread nD τ).loc main_arg0)) := by
  rw [tail_eq]
  funext i
  show Host.reduceAdd (F := Ideal) _ _ _ _ i + Host.reduceAdd (F := Ideal) _ _ _ _ i = _
  rw [sumAll_apply, sumAll_apply]
  exact totalU_eq_total (V m c main_arg1) (V m c main_arg0)

/-- THE RUN, read: the result at the common quantity, the arguments unchanged. -/
theorem run : θ_run defs (onTc (τ := τ) (main (F := Ideal))) ⟨m, fun _ => 0, ρ⟩ fun r => ∀ c : Dev nD,
      r.2.mem ((c.tc : Thread nD τ).loc main_v3) = (fun _ => total (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v3 (Pipeline.mem_restRefs_of main_v3 rfl (by decide))).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Chamfer

end
-- ==== Proof.Reference.lean ====
/-
  The reference's result, read as the common quantity.

  The reference forms the whole `[16, 4096, 4096]` table of squared distances from its second argument (the first cloud)
  to its first (the second cloud) in the same expanded form, reduces it by `min` along either point axis, sums each
  `[16, 4096]` array of minima from a starting word, and adds the column sum to the row sum.
-/
import proofs.«134157_j3212635537690_2_alg».proof.Proof.Gen.ReferenceIdeal.Read
import proofs.«134157_j3212635537690_2_alg».proof.Proof.Spec
import proofs.«134157_j3212635537690_2_alg».proof.Proof.LibMinFold

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Chamfer

/-- The distance table at `(b, i, j)`: point `i` of the second argument against point `j` of the first. -/
theorem table_apply (x0 x1 : Vec Ideal S16x4096x3 .f32) (b : Fin 16) (i j : Fin 4096) :
    val_main_v12 (F := Ideal) x0 x1 (ix3 b i j) = sqDistB x1 x0 b i j := by
  have e1 : ∀ k : Fin 3, idx_main_v1 (idx_main_v5 (idx_main_v7 (ix3 b i j))) k = ix3 b i k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b i j))) k = ix3 b j k := fun k =>
    funext fun a => Fin.ext (by match a with | ⟨0, _⟩ => rfl | ⟨1, _⟩ => rfl | ⟨2, _⟩ => rfl)
  have el : ∀ k : Fin 3, lidx_main_v4 (ix3 b i j) k = ix3 b i k := fun k =>
    funext fun a => Fin.ext (by match a with | ⟨0, _⟩ => rfl | ⟨1, _⟩ => rfl | ⟨2, _⟩ => rfl)
  have er : ∀ k : Fin 3, ridx_main_v4 (ix3 b i j) k = ix3 b j k := fun k =>
    funext fun a => Fin.ext (by match a with | ⟨0, _⟩ => rfl | ⟨1, _⟩ => rfl | ⟨2, _⟩ => rfl)
  rw [val_main_v12_apply, val_main_v9_apply, val_main_v7_apply, val_main_v5_apply, val_main_v1_apply, val_main_v8_apply,
    val_main_v6_apply, val_main_v3_apply, val_main_v11_apply, val_main_v10_apply, val_main_v4_apply]
  simp only [e1, e3, el, er, val_main_v0_apply, val_main_v2_apply, val_main_cst_apply, val_main_cst_0_apply,
    val_main_cst_1_apply, Ideal.ofBits_def, Ideal.ofBits_zero_f32, zero_add, Ideal.mulf_def, Ideal.addf_def, Ideal.subf_def]
  rfl

/-- The minimum along the first point axis, at `(b, j)`. -/
theorem colMin_apply (x0 x1 : Vec Ideal S16x4096x3 .f32) (b : Fin 16) (j : Fin 4096) :
    val_main_v13 (F := Ideal) x0 x1 (ix2 b j) = colMin x1 x0 b j := by
  unfold val_main_v13 colMin
  refine (Host.reduce_eq_fold_single _ _ _ reducesTo_S16x4096x4096_S16x4096_d1 (by decide) h_S_ (ix2 b j)).trans ?_
  show (Finset.univ : Finset (Fin 4096)).fold min (Ideal.ofBits .f32 0x7F800000#32) _ = _
  refine Finset.fold_congr fun i _ => ?_
  show val_main_v12 (F := Ideal) x0 x1 _ = _
  rw [show (Shape.Reduces.lift (s := S16x4096x4096) (t := S16x4096) (a := 1) (by decide) (ix2 b j) i) = ix3 b i j from
    funext fun a => Fin.ext (by match a with | ⟨0, _⟩ => rfl | ⟨1, _⟩ => rfl | ⟨2, _⟩ => rfl), table_apply]

/-- The minimum along the second point axis, at `(b, i)`. -/
theorem rowMin_apply (x0 x1 : Vec Ideal S16x4096x3 .f32) (b : Fin 16) (i : Fin 4096) :
    val_main_v15 (F := Ideal) x0 x1 (ix2 b i) = rowMin x1 x0 b i := by
  unfold val_main_v15 rowMin
  refine (Host.reduce_eq_fold_single _ _ _ reducesTo_S16x4096x4096_S16x4096_d2 (by decide) h_S_ (ix2 b i)).trans ?_
  show (Finset.univ : Finset (Fin 4096)).fold min (Ideal.ofBits .f32 0x7F800000#32) _ = _
  refine Finset.fold_congr fun j _ => ?_
  show val_main_v12 (F := Ideal) x0 x1 _ = _
  rw [show (Shape.Reduces.lift (s := S16x4096x4096) (t := S16x4096) (a := 2) (by decide) (ix2 b i) j) = ix3 b i j from
    funext fun a => Fin.ext (by match a with | ⟨0, _⟩ => rfl | ⟨1, _⟩ => rfl | ⟨2, _⟩ => rfl), table_apply]

/-- THE REFERENCE'S RESULT is the common quantity of its second argument against its first. -/
theorem result_eq (x0 x1 : Vec Ideal S16x4096x3 .f32) (i : S_.Idx) :
    val_main_v17 (F := Ideal) x0 x1 i = total x1 x0 := by
  rw [val_main_v17_apply, val_main_v14_apply, val_main_v16_apply]
  unfold total
  simp only [val_main_cst_3_apply, val_main_cst_5_apply, Ideal.ofBits_def, Ideal.addf_def]
  refine congrArg₂ (· + ·) (congrArg (_ + ·) (Finset.sum_congr rfl fun q _ => ?_)) (congrArg (_ + ·) (Finset.sum_congr rfl fun q _ => ?_))
  · rw [eq_ix2 q]; exact colMin_apply x0 x1 _ _
  · rw [eq_ix2 q]; exact rowMin_apply x0 x1 _ _

end Cert.ReferenceIdeal.RefValue

end
-- ==== Proof.lean ====
/-
  A batched Chamfer distance: two clouds of 4096 points in three coordinates, in each of 16 batches. With D(b, i, j) the
  squared distance between point `i` of the first cloud and point `j` of the second, in the expanded form
  |x|² + |y|² − 2⟨x, y⟩, both programs return
      Σ_b Σ_i min_j D(b, i, j)  +  Σ_b Σ_j min_i D(b, i, j).

  The kernel visits the 16 × 4 grid of (batch, block of 1024 first-cloud points). At a point it sweeps the batch's second
  cloud in four chunks of 1024: a carried row vector takes, chunk by chunk, the minimum over `j` for the block's rows, and a
  column block — reset at a batch's first point, kept across its four points — takes, lane by lane, the minimum over the
  rows seen so far. The host then sums the two `[16, 1, 4096]` arrays of minima and adds the sums. The reference forms the
  whole `[16, 4096, 4096]` table, reduces it by `min` along either axis, sums the two `[16, 4096]` arrays and adds the
  sums in the other order.

  Over the extended reals the two agree: the distance tables are one formula of the same entries (a matrix product into a
  zero accumulator and a contraction are one sum; a sum from the zero word is the sum); a minimum taken in chunks, or
  accumulated over several grid points from the same starting word, has the same lower bounds as the minimum taken at once;
  a sum over `[16, 1, 4096]` re-indexes to one over `[16, 4096]`; and addition commutes. None of these steps needs the
  inputs to be finite. The idealized kernel's ledger of rewrites is empty, so the statement that it idealizes the kernel is `True`.
-/
import proofs.«134157_j3212635537690_2_alg».proof.Defs
import proofs.«134157_j3212635537690_2_alg».proof.Proof.Gen.Kernel
import proofs.«134157_j3212635537690_2_alg».proof.Proof.Gen.Kernel.Skeleton
import proofs.«134157_j3212635537690_2_alg».proof.Proof.Gen.Kernel.Loops
import proofs.«134157_j3212635537690_2_alg».proof.Proof.Gen.Kernel.Launch
import proofs.«134157_j3212635537690_2_alg».proof.Proof.Gen.Kernel.Points
import proofs.«134157_j3212635537690_2_alg».proof.Proof.Gen.Kernel.Frame
import proofs.«134157_j3212635537690_2_alg».proof.Proof.Gen.KernelIdeal
import proofs.«134157_j3212635537690_2_alg».proof.Proof.Gen.KernelIdeal.Skeleton
import proofs.«134157_j3212635537690_2_alg».proof.Proof.Gen.KernelIdeal.Loops
import proofs.«134157_j3212635537690_2_alg».proof.Proof.Gen.KernelIdeal.Launch
import proofs.«134157_j3212635537690_2_alg».proof.Proof.Gen.KernelIdeal.Points
import proofs.«134157_j3212635537690_2_alg».proof.Proof.Gen.KernelIdeal.Frame
import proofs.«134157_j3212635537690_2_alg».proof.Proof.Gen.ReferenceIdeal
import proofs.«134157_j3212635537690_2_alg».proof.Proof.Gen.Pre_finite_inputs
import proofs.«134157_j3212635537690_2_alg».proof.Proof.Gen.ReferenceIdeal.Run
import proofs.«134157_j3212635537690_2_alg».proof.Proof.Gen.ReferenceIdeal.Read
import proofs.«134157_j3212635537690_2_alg».proof.Proof.KernelRun
import proofs.«134157_j3212635537690_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealized text. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two clouds, the idealized kernel and the idealized reference both end at the common
    quantity of the second argument (the first cloud) against the first. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Chamfer.total (m ((c.tc : Thread Cert.KernelIdeal.nD Cert.KernelIdeal.τ).loc Cert.KernelIdeal.main_arg1)) (m ((c.tc : Thread Cert.KernelIdeal.nD Cert.KernelIdeal.τ).loc Cert.KernelIdeal.main_arg0)),
    Cert.KernelIdeal.Chamfer.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, (hagree c).1, (hagree c).2]
  funext i
  exact Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
